-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S2048x256 : Shape := ⟨2, ![2048, 256]⟩
abbrev S2048 : Shape := ⟨1, ![2048]⟩
abbrev S1x2048 : Shape := ⟨2, ![1, 2048]⟩
abbrev S1 : Shape := ⟨1, ![1]⟩
abbrev S1x256 : Shape := ⟨2, ![1, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S2048 : S_.BroadcastsInDim S2048 (![] : Fin 0 → Fin S2048.rank)
  reducesTo_S2048_S_d0 : S2048.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1 .f32) (main_arg5 : FVec F S1x256 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  main_v28

def fn {F : FTy → Type} [FloatOps F] (main_arg0 : FVec F S131072x256 .f32) (main_arg1 : FVec F S2048x256 .f32) (main_arg2 : FVec F S2048 .f32) (main_arg3 : FVec F S1x2048 .f32) (main_arg4 : FVec F S1 .f32) (main_arg5 : FVec F S1x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_v13 main_v16
-- ==== Kernel.lean ====
abbrev S131072x256 : Shape := ⟨2, ![131072, 256]⟩
abbrev S2048x256 : Shape := ⟨2, ![2048, 256]⟩
abbrev S2048 : Shape := ⟨1, ![2048]⟩
abbrev S1x2048 : Shape := ⟨2, ![1, 2048]⟩
abbrev S1 : Shape := ⟨1, ![1]⟩
abbrev S1x256 : Shape := ⟨2, ![1, 256]⟩
abbrev S1x1 : Shape := ⟨2, ![1, 1]⟩
abbrev S131072x1 : Shape := ⟨2, ![131072, 1]⟩
abbrev S1024x256 : Shape := ⟨2, ![1024, 256]⟩
abbrev S1024x1 : Shape := ⟨2, ![1024, 1]⟩
abbrev S256x2048 : Shape := ⟨2, ![256, 2048]⟩
abbrev S1024x2048 : Shape := ⟨2, ![1024, 2048]⟩
abbrev S2048x1 : Shape := ⟨2, ![2048, 1]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S131072x256, .f32⟩
  | .hbm, ⟨1, _⟩ => ⟨S2048x256, .f32⟩
  | .hbm, ⟨2, _⟩ => ⟨S2048, .f32⟩
  | .hbm, ⟨3, _⟩ => ⟨S1x2048, .f32⟩
  | .hbm, ⟨4, _⟩ => ⟨S1, .f32⟩
  | .hbm, ⟨5, _⟩ => ⟨S1x256, .f32⟩
  | .hbm, ⟨6, _⟩ => ⟨S1x2048, .f32⟩
  | .hbm, ⟨7, _⟩ => ⟨S1x1, .f32⟩
  | .hbm, ⟨8, _⟩ => ⟨S131072x1, .f32⟩
  | .hbm, ⟨9, _⟩ => ⟨S131072x1, .f32⟩
  | .local _ .vmem, ⟨0, _⟩ => ⟨S1024x256, .f32⟩
  | .local _ .vmem, ⟨1, _⟩ => ⟨S1024x256, .f32⟩
  | .local _ .vmem, ⟨2, _⟩ => ⟨S2048x256, .f32⟩
  | .local _ .vmem, ⟨3, _⟩ => ⟨S1x2048, .f32⟩
  | .local _ .vmem, ⟨4, _⟩ => ⟨S1x2048, .f32⟩
  | .local _ .vmem, ⟨5, _⟩ => ⟨S1x1, .f32⟩
  | .local _ .vmem, ⟨6, _⟩ => ⟨S1x256, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2048_S1x2048 : S2048.ShapeCasts S1x2048
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  transposes_S2048x256_p1_0_S256x2048 : S2048x256.Transposes [1, 0] S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  transposes_S1x2048_p1_0_S2048x1 : S1x2048.Transposes [1, 0] S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1x256_S1x256_0_0 : ∀ a, (![0, 0] : Fin 2 → Nat) a + S1x256.size a ≤ S1x256.size a
  h_S1x256 : 0 < S1x256.numel
  transposes_S1x256_p1_0_S256x1 : S1x256.Transposes [1, 0] S256x1
  inb_S1024x1_S1024x1_0_0 : ∀ a, (![0, 0] : Fin 2 → Nat) a + S1024x1.size a ≤ S1024x1.size a
  h_S1024x1 : 0 < S1024x1.numel
  dot_S1024x256_S256x2048_S1024x2048_1_0_0_1_n_n_wf : DotDims.WF S1024x256 S256x2048 S1024x2048 [1] [0] [0] [1] [] []
  dot_S1024x2048_S2048x1_S1024x1_1_0_0_1_n_n_wf : DotDims.WF S1024x2048 S2048x1 S1024x1 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S131072x1.size a
  hwx0_6 : ∀ i : grid0.Coords, EltTy.bits .f32 = 32 ∨ (Rect.block (s := S131072x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S131072x1.size a
  hwx0_7 : ∀ i : grid0.Coords, EltTy.bits .f32 = 32 ∨ (Rect.block (s := S131072x1) S1024x1.size (cc0_transform_7 i) (hinb0_7 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x256 : Shape := ⟨2, ![131072, 256]⟩
abbrev S2048x256 : Shape := ⟨2, ![2048, 256]⟩
abbrev S2048 : Shape := ⟨1, ![2048]⟩
abbrev S1x2048 : Shape := ⟨2, ![1, 2048]⟩
abbrev S1 : Shape := ⟨1, ![1]⟩
abbrev S1x256 : Shape := ⟨2, ![1, 256]⟩
abbrev S256x2048 : Shape := ⟨2, ![256, 2048]⟩
abbrev S131072x2048 : Shape := ⟨2, ![131072, 2048]⟩
abbrev S2048x1 : Shape := ⟨2, ![2048, 1]⟩
abbrev S131072x1 : Shape := ⟨2, ![131072, 1]⟩
abbrev S1x1 : Shape := ⟨2, ![1, 1]⟩
abbrev S256x1 : Shape := ⟨2, ![256, 1]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S2048x256, .f32⟩
  | .hbm, ⟨2, _⟩ => ⟨S2048, .f32⟩
  | .hbm, ⟨3, _⟩ => ⟨S1x2048, .f32⟩
  | .hbm, ⟨4, _⟩ => ⟨S1, .f32⟩
  | .hbm, ⟨5, _⟩ => ⟨S1x256, .f32⟩
  | .hbm, ⟨6, _⟩ => ⟨S256x2048, .f32⟩
  | .hbm, ⟨7, _⟩ => ⟨S131072x2048, .f32⟩
  | .hbm, ⟨8, _⟩ => ⟨S1x2048, .f32⟩
  | .hbm, ⟨9, _⟩ => ⟨S131072x2048, .f32⟩
  | .hbm, ⟨10, _⟩ => ⟨S131072x2048, .f32⟩
  | .hbm, ⟨11, _⟩ => ⟨S131072x2048, .f32⟩
  | .hbm, ⟨12, _⟩ => ⟨S2048x1, .f32⟩
  | .hbm, ⟨13, _⟩ => ⟨S131072x1, .f32⟩
  | .hbm, ⟨14, _⟩ => ⟨S1x1, .f32⟩
  | .hbm, ⟨15, _⟩ => ⟨S131072x1, .f32⟩
  | .hbm, ⟨16, _⟩ => ⟨S131072x1, .f32⟩
  | .hbm, ⟨17, _⟩ => ⟨S131072x1, .f32⟩
  | .hbm, ⟨18, _⟩ => ⟨S256x1, .f32⟩
  | .hbm, ⟨19, _⟩ => ⟨S131072x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S131072x1, .f32⟩
  | .hbm, ⟨24, _⟩ => ⟨S131072x1, .f32⟩
  | .hbm, ⟨25, _⟩ => ⟨S_, .f32⟩
  | .hbm, ⟨26, _⟩ => ⟨S131072x1, .f32⟩
  | .hbm, ⟨27, _⟩ => ⟨S131072x1, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v14 : Ref sig .tc := ⟨.hbm, 27, rfl⟩

abbrev nD : Nat := 1
abbrev τ : Topo := Topo.v7x

variable {F : FTy → Type} [FloatOps F]

class Facts₀ : Prop where
  transposes_S2048x256_S256x2048_1_0 : S2048x256.Transposes [1, 0] S256x2048
  bcast_S2048_S1x2048_1 : S2048.BroadcastsInDim S1x2048 (![1] : Fin 1 → Fin S1x2048.rank)
  bcast_S1x2048_S131072x2048_0_1 : S1x2048.BroadcastsInDim S131072x2048 (![0, 1] : Fin 2 → Fin S131072x2048.rank)
  transposes_S1x2048_S2048x1_1_0 : S1x2048.Transposes [1, 0] S2048x1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  transposes_S1x256_S256x1_1_0 : S1x256.Transposes [1, 0] S256x1
  bcast_S_S131072x1 : S_.BroadcastsInDim S131072x1 (![] : Fin 0 → Fin S131072x1.rank)
  dot_S131072x256_S256x2048_S131072x2048_1_0_0_1_n_n_wf : DotDims.WF S131072x256 S256x2048 S131072x2048 [1] [0] [0] [1] [] []
  dot_S131072x2048_S2048x1_S131072x1_1_0_0_1_n_n_wf : DotDims.WF S131072x2048 S2048x1 S131072x1 [1] [0] [0] [1] [] []
  dot_S131072x256_S256x1_S131072x1_1_0_0_1_n_n_wf : DotDims.WF S131072x256 S256x1 S131072x1 [1] [0] [0] [1] [] []

variable [Facts₀]

def dot_S131072x256_S256x2048_S131072x2048_1_0_0_1_n_n : DotDims S131072x256 S256x2048 S131072x2048 where
  lhsContracting := [1]
  rhsContracting := [0]
  lhsNonContracting := [0]
  rhsNonContracting := [1]
  lhsBatch := []
  rhsBatch := []
  wf := dot_S131072x256_S256x2048_S131072x2048_1_0_0_1_n_n_wf
def dot_S131072x2048_S2048x1_S131072x1_1_0_0_1_n_n : DotDims S131072x2048 S2048x1 S131072x1 where
  lhsContracting := [1]
  rhsContracting := [0]
  lhsNonContracting := [0]
  rhsNonContracting := [1]
  lhsBatch := []
  rhsBatch := []
  wf := dot_S131072x2048_S2048x1_S131072x1_1_0_0_1_n_n_wf
def dot_S131072x256_S256x1_S131072x1_1_0_0_1_n_n : DotDims S131072x256 S256x1 S131072x1 where
  lhsContracting := [1]
  rhsContracting := [0]
  lhsNonContracting := [0]
  rhsNonContracting := [1]
  lhsBatch := []
  rhsBatch := []
  wf := dot_S131072x256_S256x1_S131072x1_1_0_0_1_n_n_wf

class Facts : Prop extends Facts₀ where

variable [Facts]
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.Spec.lean ====
/-
  The two results of the network, each as a function of ONE input row.

  A row `x` of 256 numbers passes through a hidden layer of 2048 units, unit `j` being `tanh (⟨x, W1 j⟩ + b1 j)`;
  the Lyapunov candidate of the row is `tanh (⟨h, W2⟩ + b2)` of its hidden vector `h`, and its control is the inner
  product `⟨x, Wc⟩` clamped to `[-1, 1]`.  All of it is read on the extended reals: the inner products are finite sums
  in the commutative monoid of extended reals, `tanh` is extended by its limits `∓1` at `∓∞`, and nothing is rounded.
  A batch of rows is treated row by row (`lyapunovArr`, `controlArr`): entry `(r, 0)` of a result is the function of
  row `r`, for a batch of any size — the whole batch and one tile of it alike.
-/
import Idealize.ShloMosaic.PureOps.Ideal
import Idealize.ShloMosaic.Lib.ValueIdx

noncomputable section

namespace Cert.LyapunovNet

open Idealize.ShloMosaic Idealize.ShloMosaic.ValueIdx

/-- Hidden unit `j` on a row: `tanh (∑ₖ row k · W1[j, k] + b1 j)`. -/
def hidden (row : Fin 256 → EReal) (w1 : (⟨2, ![2048, 256]⟩ : Shape).Idx → EReal) (b1 : Fin 2048 → EReal)
    (j : Fin 2048) : EReal :=
  Ideal.tanh ((∑ k : Fin 256, row k * w1 (ix2 j k)) + b1 j)

/-- The Lyapunov candidate of a row: `tanh (∑ⱼ hidden j · W2[0, j] + b2)`. -/
def lyapunov (row : Fin 256 → EReal) (w1 : (⟨2, ![2048, 256]⟩ : Shape).Idx → EReal) (b1 : Fin 2048 → EReal)
    (w2 : (⟨2, ![1, 2048]⟩ : Shape).Idx → EReal) (b2 : EReal) : EReal :=
  Ideal.tanh ((∑ j : Fin 2048, hidden row w1 b1 j * w2 (ix2 (0 : Fin 1) j)) + b2)

/-- The control of a row: `∑ₖ row k · Wc[0, k]`, raised to at least `-1` and then lowered to at most `1` (the two
    bounds as the single-precision words of `-1` and `1`). -/
def control (row : Fin 256 → EReal) (wc : (⟨2, ![1, 256]⟩ : Shape).Idx → EReal) : EReal :=
  min (Ideal.ofBits .f32 0x3F800000#32)
    (max (Ideal.ofBits .f32 0xBF800000#32) (∑ k : Fin 256, row k * wc (ix2 (0 : Fin 1) k)))

/-- Row `r` of a batch of `B` rows. -/
def rowOf {B : ℕ} (x : (⟨2, ![B, 256]⟩ : Shape).Idx → EReal) (r : Fin B) : Fin 256 → EReal := fun k => x (ix2 r k)

/-- The Lyapunov candidates of a batch, one per row, as a `[B, 1]` array. -/
def lyapunovArr {B : ℕ} (x : (⟨2, ![B, 256]⟩ : Shape).Idx → EReal) (w1 : (⟨2, ![2048, 256]⟩ : Shape).Idx → EReal)
    (b1 : Fin 2048 → EReal) (w2 : (⟨2, ![1, 2048]⟩ : Shape).Idx → EReal) (b2 : EReal) :
    (⟨2, ![B, 1]⟩ : Shape).Idx → EReal :=
  fun i => lyapunov (rowOf x (i 0)) w1 b1 w2 b2

/-- The controls of a batch, one per row, as a `[B, 1]` array. -/
def controlArr {B : ℕ} (x : (⟨2, ![B, 256]⟩ : Shape).Idx → EReal) (wc : (⟨2, ![1, 256]⟩ : Shape).Idx → EReal) :
    (⟨2, ![B, 1]⟩ : Shape).Idx → EReal :=
  fun i => control (rowOf x (i 0)) wc

/-- A Lyapunov candidate depends on its five arguments only. -/
theorem lyapunov_congr {row row' : Fin 256 → EReal} {w1 w1' : (⟨2, ![2048, 256]⟩ : Shape).Idx → EReal}
    {b1 b1' : Fin 2048 → EReal} {w2 w2' : (⟨2, ![1, 2048]⟩ : Shape).Idx → EReal} {b2 b2' : EReal}
    (h0 : row = row') (h1 : w1 = w1') (h2 : b1 = b1') (h3 : w2 = w2') (h4 : b2 = b2') :
    lyapunov row w1 b1 w2 b2 = lyapunov row' w1' b1' w2' b2' := by
  subst h0 h1 h2 h3 h4; rfl

/-- A control depends on its two arguments only. -/
theorem control_congr {row row' : Fin 256 → EReal} {wc wc' : (⟨2, ![1, 256]⟩ : Shape).Idx → EReal}
    (h0 : row = row') (h1 : wc = wc') : control row wc = control row' wc' := by
  subst h0 h1; rfl

end Cert.LyapunovNet

end
-- ==== Proof.Payload.lean ====
/-
  What one grid point stores, entry by entry.

  A grid point holds a tile of 1024 rows of `x` and the whole of `W1`, `b1` (as one row), `W2`, `b2` (as a 1×1 array) and
  `Wc`.  It stores two columns of 1024 entries.  Entry `(p, 0)` of the first is `tanh` of the product of the tile's hidden
  matrix `tanh (x · W1ᵀ + b1)` with `W2ᵀ`, plus `b2`; entry `(p, 0)` of the second is `x · Wcᵀ` clamped.  On the extended
  reals a change of float format is the identity, a matrix product into a zero accumulator is the sum over the contracted
  coordinate, a transposed operand is the operand with its coordinates exchanged, and a one-row array broadcast down the
  rows is that row: so the two entries are `lyapunov` and `control` of row `p` of the tile.
-/
import proofs.«113191_j12034498363773_1_alg».proof.Proof.Gen.KernelIdeal.Skeleton
import proofs.«113191_j12034498363773_1_alg».proof.Proof.LibLayout
import proofs.«113191_j12034498363773_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.LyapunovNet

open Idealize.ShloMosaic Idealize.ShloMosaic.ValueIdx Cert.KernelIdeal Cert.KernelIdeal.Gen

/-! ## The three products' free coordinates

Each product contracts the left operand's second axis with the right operand's first; the left operand's first
coordinate is the result's first, the right operand's second is the result's second. -/

theorem hiddenDot_row (j : S1024x2048.Idx) (k : dot_S1024x256_S256x2048_S1024x2048_1_0_0_1_n_n.contr.Idx) : (dot_S1024x256_S256x2048_S1024x2048_1_0_0_1_n_n.lhsIdx j k 0).val = (j 0).val := by
  unfold DotDims.lhsIdx
  rw [dif_neg (show ¬(0 : Fin S1024x256.rank) ∈ dot_S1024x256_S256x2048_S1024x2048_1_0_0_1_n_n.lhsBatch by decide),
    dif_pos (show (0 : Fin S1024x256.rank) ∈ dot_S1024x256_S256x2048_S1024x2048_1_0_0_1_n_n.lhsNonContracting by decide)]
  rfl
theorem hiddenDot_col (j : S1024x2048.Idx) (k : dot_S1024x256_S256x2048_S1024x2048_1_0_0_1_n_n.contr.Idx) : (dot_S1024x256_S256x2048_S1024x2048_1_0_0_1_n_n.rhsIdx j k 1).val = (j 1).val := by
  unfold DotDims.rhsIdx
  rw [dif_neg (show ¬(1 : Fin S256x2048.rank) ∈ dot_S1024x256_S256x2048_S1024x2048_1_0_0_1_n_n.rhsBatch by decide),
    dif_pos (show (1 : Fin S256x2048.rank) ∈ dot_S1024x256_S256x2048_S1024x2048_1_0_0_1_n_n.rhsNonContracting by decide)]
  rfl
theorem outDot_row (j : S1024x1.Idx) (k : dot_S1024x2048_S2048x1_S1024x1_1_0_0_1_n_n.contr.Idx) : (dot_S1024x2048_S2048x1_S1024x1_1_0_0_1_n_n.lhsIdx j k 0).val = (j 0).val := by
  unfold DotDims.lhsIdx
  rw [dif_neg (show ¬(0 : Fin S1024x2048.rank) ∈ dot_S1024x2048_S2048x1_S1024x1_1_0_0_1_n_n.lhsBatch by decide),
    dif_pos (show (0 : Fin S1024x2048.rank) ∈ dot_S1024x2048_S2048x1_S1024x1_1_0_0_1_n_n.lhsNonContracting by decide)]
  rfl
theorem outDot_col (j : S1024x1.Idx) (k : dot_S1024x2048_S2048x1_S1024x1_1_0_0_1_n_n.contr.Idx) : (dot_S1024x2048_S2048x1_S1024x1_1_0_0_1_n_n.rhsIdx j k 1).val = (j 1).val := by
  unfold DotDims.rhsIdx
  rw [dif_neg (show ¬(1 : Fin S2048x1.rank) ∈ dot_S1024x2048_S2048x1_S1024x1_1_0_0_1_n_n.rhsBatch by decide),
    dif_pos (show (1 : Fin S2048x1.rank) ∈ dot_S1024x2048_S2048x1_S1024x1_1_0_0_1_n_n.rhsNonContracting by decide)]
  rfl
theorem ctrlDot_row (j : S1024x1.Idx) (k : dot_S1024x256_S256x1_S1024x1_1_0_0_1_n_n.contr.Idx) : (dot_S1024x256_S256x1_S1024x1_1_0_0_1_n_n.lhsIdx j k 0).val = (j 0).val := by
  unfold DotDims.lhsIdx
  rw [dif_neg (show ¬(0 : Fin S1024x256.rank) ∈ dot_S1024x256_S256x1_S1024x1_1_0_0_1_n_n.lhsBatch by decide),
    dif_pos (show (0 : Fin S1024x256.rank) ∈ dot_S1024x256_S256x1_S1024x1_1_0_0_1_n_n.lhsNonContracting by decide)]
  rfl
theorem ctrlDot_col (j : S1024x1.Idx) (k : dot_S1024x256_S256x1_S1024x1_1_0_0_1_n_n.contr.Idx) : (dot_S1024x256_S256x1_S1024x1_1_0_0_1_n_n.rhsIdx j k 1).val = (j 1).val := by
  unfold DotDims.rhsIdx
  rw [dif_neg (show ¬(1 : Fin S256x1.rank) ∈ dot_S1024x256_S256x1_S1024x1_1_0_0_1_n_n.rhsBatch by decide),
    dif_pos (show (1 : Fin S256x1.rank) ∈ dot_S1024x256_S256x1_S1024x1_1_0_0_1_n_n.rhsNonContracting by decide)]
  rfl

/-! ## The hidden layer before `tanh` -/

/-- Entry `(p, j)` of `x · W1ᵀ + b1` over a tile: the inner product of the tile's row `p` with row `j` of `W1`, plus
    `b1` at `j`. -/
theorem hiddenPre_apply (x0 : FVec Ideal S1024x256 .f32) (x1 : FVec Ideal S2048x256 .f32) (x2 : FVec Ideal S1x2048 .f32)
    (p : Fin 1024) (j : Fin 2048) :
    addf (matmul dot_S1024x256_S256x2048_S1024x2048_1_0_0_1_n_n none (k0_pay1 (F := Ideal) x0)
        (transpose S256x2048 [1, 0] (truncf .bf16 x1 bitsLt_bf16_f32) transposes_S2048x256_p1_0_S256x2048)
        (constant (F := Ideal) S1024x2048 .f32 0x00000000#32))
      (broadcastTo S1024x2048 (shapeCast S1x2048 x2 shapeCasts_S1x2048_S1x2048) broadcasts_S1x2048_S1024x2048) (ix2 p j)
      = (∑ k : Fin 256, x0 (ix2 p k) * x1 (ix2 j k)) + x2 (ix2 (0 : Fin 1) j) := by
  refine (addf_apply _ _ _).trans ?_
  refine congrArg₂ (· + ·) ?_ ?_
  · refine (LibLayout.matmul_rows_cols_apply dot_S1024x256_S256x2048_S1024x2048_1_0_0_1_n_n rfl rfl rfl rfl hiddenDot_row hiddenDot_col none _ _ p j).trans ?_
    refine Finset.sum_congr rfl fun k _ => ?_
    refine congrArg₂ (· * ·) rfl ?_
    exact transpose_ix2_apply _ _ k j
  · exact (broadcastTo_1b_ab_apply _ _ p j).trans (congrFun (shapeCast_self x2 _) _)

/-! ## The two stored columns -/

/-- The first stored column at an entry is the Lyapunov candidate of the tile's row. -/
theorem lyapunov_payload (x0 : FVec Ideal S1024x256 .f32) (x1 : FVec Ideal S2048x256 .f32) (x2 : FVec Ideal S1x2048 .f32)
    (x3 : FVec Ideal S1x2048 .f32) (x4 : FVec Ideal S1x1 .f32) (y : S1024x1.Idx) :
    k0_pay2 (F := Ideal) x0 x1 x2 x3 x4 y
      = lyapunov (rowOf x0 (y 0)) x1 (fun j => x2 (ix2 (0 : Fin 1) j)) x3 (x4 (ix2 (0 : Fin 1) (0 : Fin 1))) := by
  obtain ⟨p, q, rfl⟩ : ∃ (p : Fin 1024) (q : Fin 1), y = ix2 p q := ⟨y 0, y 1, eq_ix2 y⟩
  obtain rfl : q = 0 := Subsingleton.elim _ _
  unfold k0_pay2 lyapunov
  dsimp only
  refine congrArg Ideal.tanh ?_
  refine (addf_apply _ _ _).trans ?_
  refine congrArg₂ (· + ·) ?_ ?_
  · refine (LibLayout.matmul_rows_cols_apply dot_S1024x2048_S2048x1_S1024x1_1_0_0_1_n_n rfl rfl rfl rfl outDot_row outDot_col none _ _ p 0).trans ?_
    refine Finset.sum_congr rfl fun j _ => ?_
    refine congrArg₂ (· * ·) ?_ ?_
    · exact congrArg Ideal.tanh (hiddenPre_apply x0 x1 x2 p j)
    · exact transpose_ix2_apply _ _ j 0
  · exact (broadcastTo_1b_ab_apply _ _ p 0).trans (congrFun (shapeCast_self x4 _) _)

/-- The second stored column at an entry is the control of the tile's row. -/
theorem control_payload (x0 : FVec Ideal S1024x256 .f32) (x5 : FVec Ideal S1x256 .f32) (y : S1024x1.Idx) :
    k0_pay3 (F := Ideal) x0 x5 y = control (rowOf x0 (y 0)) x5 := by
  obtain ⟨p, q, rfl⟩ : ∃ (p : Fin 1024) (q : Fin 1), y = ix2 p q := ⟨y 0, y 1, eq_ix2 y⟩
  obtain rfl : q = 0 := Subsingleton.elim _ _
  unfold k0_pay3 control
  dsimp only
  refine (minimumf_apply _ _ _).trans ?_
  refine congrArg₂ min rfl ?_
  refine (maximumf_apply _ _ _).trans ?_
  refine congrArg₂ max rfl ?_
  refine (LibLayout.matmul_rows_cols_apply dot_S1024x256_S256x1_S1024x1_1_0_0_1_n_n rfl rfl rfl rfl ctrlDot_row ctrlDot_col none _ _ p 0).trans ?_
  refine Finset.sum_congr rfl fun k _ => ?_
  refine congrArg₂ (· * ·) rfl ?_
  exact transpose_ix2_apply _ _ k 0

end Cert.LyapunovNet

end
-- ==== Proof.Blocks.lean ====
/-
  From the tiles to the two result arrays.

  The grid has 128 points; point `t` holds rows `1024·t … 1024·t + 1023` of `x` and writes back rows
  `1024·t … 1024·t + 1023` of each result column, while every other operand is held whole at every point.  What point `t`
  writes back is therefore rows `1024·t …` of ONE function of the whole arrays — the Lyapunov candidate, resp. the control,
  of each row of `x` — and the 128 row ranges cover the `131072` rows: after the run each result array is that function.
  The two bias operands reach the grid through a reshape on the host (`b1` as one row, `b2` as a 1×1 array), read back here
  at their entries.
-/
import proofs.«113191_j12034498363773_1_alg».proof.Proof.Gen.KernelIdeal.Value
import proofs.«113191_j12034498363773_1_alg».proof.Proof.Payload
import Idealize.ShloMosaic.Lib.StableHlo.Run

noncomputable section

namespace Cert.LyapunovNet

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- Every load and store of the body is through its buffer's whole rectangle, at offsets `(0, 0)`. -/
theorem zeroOffsets : (![0, 0] : Fin 2 → Nat) = fun _ => 0 := funext fun a => by fin_cases a <;> rfl

/-! ## The index maps, decided over the 128 points -/

/-- At point `t` the tile of `x` and the two result tiles sit at row block `t`; every other operand is at block `(0, 0)`. -/
theorem tile_index : ∀ t : Fin cfg0.N,
    win0_0.index t (0 : Fin 2) = win0_6.index t (0 : Fin 2) ∧ win0_0.index t (1 : Fin 2) = 0
    ∧ win0_7.index t (0 : Fin 2) = win0_6.index t (0 : Fin 2)
    ∧ win0_6.index t (1 : Fin 2) = 0 ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every one of the 128 row blocks is some point's. -/
theorem tile_onto : ∀ q : Fin 128, ∃ t : Fin cfg0.N, win0_6.index t (0 : Fin 2) = q.val :=
  (by decide +kernel : ∀ q : Fin 128, ∃ t : Fin grid0.N, win0_6.index t (0 : Fin 2) = q.val)

/-! ## What a point writes back -/

/-- The first column a point computes, entry by entry, is the Lyapunov candidate of the row of the whole `x` that the
    entry's place in the result array names: the point's tile of `x` is those rows, and the other operands are whole. -/
theorem lyapunov_tile (c : Dev nD) (t : Fin cfg0.N) (y : S1024x1.Idx) :
    k0_pay2 (iblk m c 0 t) (iblk m c 1 t) (iblk m c 2 t) (iblk m c 3 t) (iblk m c 4 t) y
      = (lyapunovArr (B := 131072) (V m c main_arg0) (V m c main_arg1) (fun j : Fin 2048 => V m c main_v0 (ix2 (0 : Fin 1) j)) (V m c main_arg3) (V m c main_v1 (ix2 (0 : Fin 1) (0 : Fin 1)))) (((cfg0.win 6).blk t).view.emb y) := by
  obtain ⟨e0, e1, e2, e3, e4, e5, e6, e7, e8, e9, e10, e11, e12, e13, e14⟩ := tile_index t
  refine (lyapunov_payload (iblk m c 0 t) (iblk m c 1 t) (iblk m c 2 t) (iblk m c 3 t) (iblk m c 4 t) y).trans ?_
  unfold lyapunovArr
  refine lyapunov_congr ?_ ?_ ?_ ?_ ?_
  · funext k
    show V m c main_arg0 (((cfg0.win 0).blk t).view.emb (ix2 (y 0) k))
      = V m c main_arg0 (ix2 ((((cfg0.win 6).blk t).view.emb y) 0) k)
    refine congrArg (V m c main_arg0) (funext fun a => Fin.ext ?_)
    match a with
    | ⟨0, _⟩ =>
      show win0_0.index t (0 : Fin 2) * 1024 + 1 * (y 0).val = win0_6.index t (0 : Fin 2) * 1024 + 1 * (y 0).val
      rw [e0]
    | ⟨1, _⟩ => show win0_0.index t (1 : Fin 2) * 256 + 1 * k.val = k.val; omega
  · funext z
    show V m c main_arg1 (((cfg0.win 1).blk t).view.emb z) = V m c main_arg1 z
    refine congrArg (V m c main_arg1) (funext fun a => Fin.ext ?_)
    match a with
    | ⟨0, _⟩ => show win0_1.index t (0 : Fin 2) * 2048 + 1 * (z 0).val = (z 0).val; omega
    | ⟨1, _⟩ => show win0_1.index t (1 : Fin 2) * 256 + 1 * (z 1).val = (z 1).val; omega
  · funext j
    show V m c main_v0 (((cfg0.win 2).blk t).view.emb (ix2 (0 : Fin 1) j)) = V m c main_v0 (ix2 (0 : Fin 1) j)
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 2048 + 1 * j.val = j.val; omega
  · funext z
    show V m c main_arg3 (((cfg0.win 3).blk t).view.emb z) = V m c main_arg3 z
    refine congrArg (V m c main_arg3) (funext fun a => Fin.ext ?_)
    match a with
    | ⟨0, _⟩ => show win0_3.index t (0 : Fin 2) * 1 + 1 * (z 0).val = (z 0).val; omega
    | ⟨1, _⟩ => show win0_3.index t (1 : Fin 2) * 2048 + 1 * (z 1).val = (z 1).val; omega
  · show V m c main_v1 (((cfg0.win 4).blk t).view.emb (ix2 (0 : Fin 1) (0 : Fin 1))) = V m c main_v1 (ix2 (0 : Fin 1) (0 : Fin 1))
    refine congrArg (V m c main_v1) (funext fun a => Fin.ext ?_)
    match a with
    | ⟨0, _⟩ => show win0_4.index t (0 : Fin 2) * 1 + 1 * 0 = 0; omega
    | ⟨1, _⟩ => show win0_4.index t (1 : Fin 2) * 1 + 1 * 0 = 0; omega

/-- The second column a point computes, entry by entry, is the control of the row of the whole `x` the entry names. -/
theorem control_tile (c : Dev nD) (t : Fin cfg0.N) (y : S1024x1.Idx) :
    k0_pay3 (iblk m c 0 t) (iblk m c 5 t) y = (controlArr (B := 131072) (V m c main_arg0) (V m c main_arg5)) (((cfg0.win 7).blk t).view.emb y) := by
  obtain ⟨e0, e1, e2, e3, e4, e5, e6, e7, e8, e9, e10, e11, e12, e13, e14⟩ := tile_index t
  refine (control_payload (iblk m c 0 t) (iblk m c 5 t) y).trans ?_
  unfold controlArr
  refine control_congr ?_ ?_
  · funext k
    show V m c main_arg0 (((cfg0.win 0).blk t).view.emb (ix2 (y 0) k))
      = V m c main_arg0 (ix2 ((((cfg0.win 7).blk t).view.emb y) 0) k)
    refine congrArg (V m c main_arg0) (funext fun a => Fin.ext ?_)
    match a with
    | ⟨0, _⟩ =>
      show win0_0.index t (0 : Fin 2) * 1024 + 1 * (y 0).val = win0_7.index t (0 : Fin 2) * 1024 + 1 * (y 0).val
      rw [e0, e2]
    | ⟨1, _⟩ => show win0_0.index t (1 : Fin 2) * 256 + 1 * k.val = k.val; omega
  · funext z
    show V m c main_arg5 (((cfg0.win 5).blk t).view.emb z) = V m c main_arg5 z
    refine congrArg (V m c main_arg5) (funext fun a => Fin.ext ?_)
    match a with
    | ⟨0, _⟩ => show win0_5.index t (0 : Fin 2) * 1 + 1 * (z 0).val = (z 0).val; omega
    | ⟨1, _⟩ => show win0_5.index t (1 : Fin 2) * 256 + 1 * (z 1).val = (z 1).val; omega

/-- What point `t` writes back to the first result array is its rows of the Lyapunov candidates of the whole batch. -/
theorem lyapunov_flushed (c : Dev nD) (t : Fin cfg0.N) :
    (dats m 0 c).flushed 6 t = ((cfg0.win 6).blk t).view.read (Elt Ideal) (lyapunovArr (B := 131072) (V m c main_arg0) (V m c main_arg1) (fun j : Fin 2048 => V m c main_v0 (ix2 (0 : Fin 1) j)) (V m c main_arg3) (V m c main_v1 (ix2 (0 : Fin 1) (0 : Fin 1)))) := by
  rw [Value.flushed6]
  unfold out0_6
  rw [View.canon_unit_zero zeroOffsets]
  simp only [View.ld_unit_zero (S := S1024x256) zeroOffsets, View.ld_unit_zero (S := S2048x256) zeroOffsets,
    View.ld_unit_zero (S := S1x2048) zeroOffsets, View.ld_unit_zero (S := S1x1) zeroOffsets]
  funext y
  exact lyapunov_tile m c t y

/-- What point `t` writes back to the second result array is its rows of the controls of the whole batch. -/
theorem control_flushed (c : Dev nD) (t : Fin cfg0.N) :
    (dats m 0 c).flushed 7 t = ((cfg0.win 7).blk t).view.read (Elt Ideal) (controlArr (B := 131072) (V m c main_arg0) (V m c main_arg5)) := by
  rw [Value.flushed7]
  unfold out0_7
  rw [View.canon_unit_zero zeroOffsets]
  simp only [View.ld_unit_zero (S := S1024x256) zeroOffsets, View.ld_unit_zero (S := S1x256) zeroOffsets]
  funext y
  exact control_tile m c t y

/-! ## The row ranges cover the arrays -/

/-- An entry of the first result array is in point `t`'s tile iff each coordinate is in the tile's range. -/
theorem mem_tile6 (t : Fin cfg0.N) (i : S131072x1.Idx) :
    i ∈ ((cfg0.win 6).blk t).view.set ↔ ∀ a : Fin 2, win0_6.index t a * S1024x1.size a ≤ (i a).val
      ∧ (i a).val < win0_6.index t a * S1024x1.size a + S1024x1.size a := by
  show i ∈ ((View.whole main_v2_0).slice (win0_6.rect t)).set ↔ _
  rw [View.set_slice_whole, Rect.mem_set_unit]
  exact Iff.rfl

/-- The same for the second result array. -/
theorem mem_tile7 (t : Fin cfg0.N) (i : S131072x1.Idx) :
    i ∈ ((cfg0.win 7).blk t).view.set ↔ ∀ a : Fin 2, win0_7.index t a * S1024x1.size a ≤ (i a).val
      ∧ (i a).val < win0_7.index t a * S1024x1.size a + S1024x1.size a := by
  show i ∈ ((View.whole main_v2_1).slice (win0_7.rect t)).set ↔ _
  rw [View.set_slice_whole, Rect.mem_set_unit]
  exact Iff.rfl

/-- Row `r` of the first result array is written back by the point of row block `r / 1024`. -/
theorem cover6 (i : S131072x1.Idx) : ∃ t : Fin cfg0.N, (cfg0.win 6).flush t = true ∧ i ∈ ((cfg0.win 6).blk t).view.set := by
  have hi0 : (i 0).val < 131072 := (i 0).isLt
  have hi1 : (i 1).val < 1 := (i 1).isLt
  obtain ⟨t, ht⟩ := tile_onto ⟨(i 0).val / 1024, by omega⟩
  have ht' : win0_6.index t (0 : Fin 2) = (i 0).val / 1024 := ht
  obtain ⟨e0, e1, e2, e3, e4, -⟩ := tile_index t
  refine ⟨t, flush0_6 t, ?_⟩
  rw [mem_tile6]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 1 ≤ (i 1).val ∧ (i 1).val < win0_6.index t (1 : Fin 2) * 1 + 1
    omega

/-- Row `r` of the second result array likewise. -/
theorem cover7 (i : S131072x1.Idx) : ∃ t : Fin cfg0.N, (cfg0.win 7).flush t = true ∧ i ∈ ((cfg0.win 7).blk t).view.set := by
  have hi0 : (i 0).val < 131072 := (i 0).isLt
  have hi1 : (i 1).val < 1 := (i 1).isLt
  obtain ⟨t, ht⟩ := tile_onto ⟨(i 0).val / 1024, by omega⟩
  have ht' : win0_6.index t (0 : Fin 2) = (i 0).val / 1024 := ht
  obtain ⟨e0, e1, e2, e3, e4, -⟩ := tile_index t
  refine ⟨t, flush0_7 t, ?_⟩
  rw [mem_tile7]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 1 ≤ (i 1).val ∧ (i 1).val < win0_7.index t (1 : Fin 2) * 1 + 1
    omega

/-! ## The two biases as the grid finds them -/

/-- The grid's one-row `b1` is the host's reshape of the argument `b1`: entry `(0, j)` is `b1` at `j`. -/
theorem biasRow_apply (c : Dev nD) (j : Fin 2048) :
    V m c main_v0 (ix2 (0 : Fin 1) j) = (m ((c : Thread nD τ).loc main_arg2)) (ix1 j) := by
  have e : (V m c main_v0 : S1x2048.Idx → EReal)
      = shapeCast S1x2048 (m ((c : Thread nD τ).loc main_arg2)) shapeCasts_S2048_S1x2048 := by
    dsimp only [V, hostOps0]; after_results; rfl
  exact (congrFun e _).trans (shapeCast_a_1a_apply _ _ 0 j)

/-- The grid's 1×1 `b2` is the host's reshape of the argument `b2`: its entry is `b2` at `0`. -/
theorem biasOne_apply (c : Dev nD) :
    V m c main_v1 (ix2 (0 : Fin 1) (0 : Fin 1)) = (m ((c : Thread nD τ).loc main_arg4)) (ix1 (0 : Fin 1)) := by
  have e : (V m c main_v1 : S1x1.Idx → EReal)
      = shapeCast S1x1 (m ((c : Thread nD τ).loc main_arg4)) shapeCasts_S1_S1x1 := by
    dsimp only [V, hostOps0]; after_results; rfl
  exact (congrFun e _).trans (shapeCast_a_1a_apply _ _ 0 0)

/-! ## The arrays after the run -/

/-- After the run the first result array holds the Lyapunov candidate of every row of the argument `x`. -/
theorem lyapunov_final (c : Dev nD) : (dats m 0 c).arrAt 6 cfg0.N = lyapunovArr (B := 131072) (m ((c : Thread nD τ).loc main_arg0)) (m ((c : Thread nD τ).loc main_arg1)) (fun j : Fin 2048 => (m ((c : Thread nD τ).loc main_arg2)) (ix1 j)) (m ((c : Thread nD τ).loc main_arg3)) ((m ((c : Thread nD τ).loc main_arg4)) (ix1 (0 : Fin 1))) := by
  refine ((dats m 0 c).arrAt_eq_of_cover 6 (lyapunovArr (B := 131072) (V m c main_arg0) (V m c main_arg1) (fun j : Fin 2048 => V m c main_v0 (ix2 (0 : Fin 1) j)) (V m c main_arg3) (V m c main_v1 (ix2 (0 : Fin 1) (0 : Fin 1)))) (fun t _ => lyapunov_flushed m c t) cover6).trans ?_
  have hb1 : (fun j : Fin 2048 => V m c main_v0 (ix2 (0 : Fin 1) j)) = fun j : Fin 2048 => (m ((c : Thread nD τ).loc main_arg2)) (ix1 j) :=
    funext fun j => biasRow_apply m c j
  rw [hb1, biasOne_apply m c, V_main_arg0 m c, V_main_arg1 m c, V_main_arg3 m c]

/-- After the run the second result array holds the control of every row of the argument `x`. -/
theorem control_final (c : Dev nD) : (dats m 0 c).arrAt 7 cfg0.N = controlArr (B := 131072) (m ((c : Thread nD τ).loc main_arg0)) (m ((c : Thread nD τ).loc main_arg5)) := by
  refine ((dats m 0 c).arrAt_eq_of_cover 7 (controlArr (B := 131072) (V m c main_arg0) (V m c main_arg5)) (fun t _ => control_flushed m c t) cover7).trans ?_
  rw [V_main_arg0 m c, V_main_arg5 m c]

/-- Every weakly fair execution of the kernel's program ends with the two result arrays at the Lyapunov candidates and the
    controls of the rows of `x`, and the six arguments as they were. -/
theorem kernel_run : θ_run defs (onTc (τ := τ) (main (F := Ideal))) ⟨m, fun _ => 0, ρ⟩ fun r => ∀ c : Dev nD,
      r.2.mem ((c : Thread nD τ).loc main_v2_0) = lyapunovArr (B := 131072) (m ((c : Thread nD τ).loc main_arg0)) (m ((c : Thread nD τ).loc main_arg1)) (fun j : Fin 2048 => (m ((c : Thread nD τ).loc main_arg2)) (ix1 j)) (m ((c : Thread nD τ).loc main_arg3)) ((m ((c : Thread nD τ).loc main_arg4)) (ix1 (0 : Fin 1)))
      ∧ r.2.mem ((c : Thread nD τ).loc main_v2_1) = controlArr (B := 131072) (m ((c : Thread nD τ).loc main_arg0)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (lyapunov_final m c), (h c).2.1.trans (control_final m c), (h c).2.2⟩)
    (Value.run_blocks m ρ)

end Cert.LyapunovNet

end
-- ==== Proof.Reference.lean ====
/-
  The reference program's two results are the specification, row by row.

  The reference forms `x · W1ᵀ`, adds `b1` to every row, applies `tanh`, forms the product with `W2ᵀ`, adds `b2`,
  applies `tanh`; and it clamps `x · Wcᵀ`.  Read at entry `(r, 0)`, each transposed operand is the operand with its
  two coordinates exchanged, each matrix product is the sum over the contracted coordinate, and each broadcast bias
  is the bias at the column's coordinate: the entry is `lyapunov` (resp. `control`) of row `r` of `x`.
-/
import proofs.«113191_j12034498363773_1_alg».proof.Proof.Gen.ReferenceIdeal.Read
import proofs.«113191_j12034498363773_1_alg».proof.Proof.Spec

noncomputable section

namespace Cert.LyapunovNet

open Idealize.ShloMosaic Idealize.ShloMosaic.ValueIdx Cert.ReferenceIdeal

/-- The reference's first result, entry by entry, is the Lyapunov candidate of the entry's row. -/
theorem reference_lyapunov (X : (⟨S131072x256, .f32⟩ : BufTy).Contents (Elt Ideal))
    (W1 : (⟨S2048x256, .f32⟩ : BufTy).Contents (Elt Ideal)) (B1 : (⟨S2048, .f32⟩ : BufTy).Contents (Elt Ideal))
    (W2 : (⟨S1x2048, .f32⟩ : BufTy).Contents (Elt Ideal)) (B2 : (⟨S1, .f32⟩ : BufTy).Contents (Elt Ideal)) :
    Read.val_main_v11 (F := Ideal) X W1 B1 W2 B2
      = lyapunovArr X W1 (fun j => B1 (ix1 j)) W2 (B2 (ix1 (0 : Fin 1))) := by
  funext i
  obtain ⟨r, q, rfl⟩ : ∃ (r : Fin 131072) (q : Fin 1), i = ix2 r q := ⟨i 0, i 1, eq_ix2 i⟩
  obtain rfl : q = 0 := Subsingleton.elim _ _
  -- the index functions the stages are read through, by coordinates
  have hl7 : ∀ j : Fin 2048, Read.lidx_main_v7 (ix2 r (0 : Fin 1)) j = ix2 r j := fun j =>
    funext fun a => Fin.ext (by match a with | ⟨0, _⟩ => rfl | ⟨1, _⟩ => rfl)
  have hr7 : ∀ j : Fin 2048, Read.ridx_main_v7 (ix2 r (0 : Fin 1)) j = ix2 j (0 : Fin 1) := fun j =>
    funext fun a => Fin.ext (by match a with | ⟨0, _⟩ => rfl | ⟨1, _⟩ => rfl)
  have h6 : ∀ j : Fin 2048, Read.idx_main_v6 (ix2 j (0 : Fin 1)) = ix2 (0 : Fin 1) j := fun j =>
    funext fun a => Fin.ext (by match a with | ⟨0, _⟩ => rfl | ⟨1, _⟩ => rfl)
  have hl1 : ∀ (j : Fin 2048) (k : Fin 256), Read.lidx_main_v1 (ix2 r j) k = ix2 r k := fun j k =>
    funext fun a => Fin.ext (by match a with | ⟨0, _⟩ => rfl | ⟨1, _⟩ => rfl)
  have hr1 : ∀ (j : Fin 2048) (k : Fin 256), Read.ridx_main_v1 (ix2 r j) k = ix2 k j := fun j k =>
    funext fun a => Fin.ext (by match a with | ⟨0, _⟩ => rfl | ⟨1, _⟩ => rfl)
  have h0 : ∀ (j : Fin 2048) (k : Fin 256), Read.idx_main_v0 (ix2 k j) = ix2 j k := fun j k =>
    funext fun a => Fin.ext (by match a with | ⟨0, _⟩ => rfl | ⟨1, _⟩ => rfl)
  have h3 : ∀ j : Fin 2048, Read.idx_main_v3 (ix2 r j) = ix2 (0 : Fin 1) j := fun j =>
    funext fun a => Fin.ext (by match a with | ⟨0, _⟩ => rfl | ⟨1, _⟩ => rfl)
  have h2 : ∀ j : Fin 2048, Read.idx_main_v2 (ix2 (0 : Fin 1) j) = ix1 j := fun j =>
    funext fun a => Fin.ext (by match a with | ⟨0, _⟩ => rfl)
  have h9 : Read.idx_main_v9 (ix2 r (0 : Fin 1)) = ix2 (0 : Fin 1) (0 : Fin 1) :=
    funext fun a => Fin.ext (by match a with | ⟨0, _⟩ => rfl | ⟨1, _⟩ => rfl)
  have h8 : Read.idx_main_v8 (ix2 (0 : Fin 1) (0 : Fin 1)) = ix1 (0 : Fin 1) :=
    funext fun a => Fin.ext (by match a with | ⟨0, _⟩ => rfl)
  rw [Read.val_main_v11_apply, Read.val_main_v10_apply, Read.val_main_v7_apply, Read.val_main_v9_apply,
    Read.val_main_v8_apply]
  simp only [Read.val_main_v5_apply, Read.val_main_v4_apply, Read.val_main_v1_apply, Read.val_main_v3_apply,
    Read.val_main_v2_apply, Read.val_main_v6_apply, Read.val_main_v0_apply, hl7, hr7, h6, hl1, hr1, h0, h3, h2, h9, h8,
    Ideal.hostUnary_tanh_def, Ideal.addf_def]
  rfl

/-- The reference's second result, entry by entry, is the control of the entry's row. -/
theorem reference_control (X : (⟨S131072x256, .f32⟩ : BufTy).Contents (Elt Ideal))
    (Wc : (⟨S1x256, .f32⟩ : BufTy).Contents (Elt Ideal)) :
    Read.val_main_v14 (F := Ideal) X Wc = controlArr X Wc := by
  funext i
  obtain ⟨r, q, rfl⟩ : ∃ (r : Fin 131072) (q : Fin 1), i = ix2 r q := ⟨i 0, i 1, eq_ix2 i⟩
  obtain rfl : q = 0 := Subsingleton.elim _ _
  have hl : ∀ k : Fin 256, Read.lidx_main_v13 (ix2 r (0 : Fin 1)) k = ix2 r k := fun k =>
    funext fun a => Fin.ext (by match a with | ⟨0, _⟩ => rfl | ⟨1, _⟩ => rfl)
  have hr : ∀ k : Fin 256, Read.ridx_main_v13 (ix2 r (0 : Fin 1)) k = ix2 k (0 : Fin 1) := fun k =>
    funext fun a => Fin.ext (by match a with | ⟨0, _⟩ => rfl | ⟨1, _⟩ => rfl)
  have h12 : ∀ k : Fin 256, Read.idx_main_v12 (ix2 k (0 : Fin 1)) = ix2 (0 : Fin 1) k := fun k =>
    funext fun a => Fin.ext (by match a with | ⟨0, _⟩ => rfl | ⟨1, _⟩ => rfl)
  rw [Read.val_main_v14_apply, Read.val_main_call0_v4_apply, Read.val_main_call0_v3_apply, Read.val_main_cst_0_apply,
    Read.val_main_call0_v2_apply, Read.val_main_call0_v1_apply, Read.val_main_call0_v0_apply, Read.val_main_cst_apply,
    Read.val_main_v13_apply]
  simp only [Read.val_main_v12_apply, hl, hr, h12, Ideal.minimumf_def, Ideal.maximumf_def, Ideal.ofBits_def]
  rfl

end Cert.LyapunovNet

end
-- ==== Proof.lean ====
/-
  The certificate of a two-layer network with a clamped linear control, computed tile by tile, against its plain
  formulation.

  For a batch `x` of 131072 rows of 256 numbers the programs return, per row, the Lyapunov candidate
  `tanh (tanh (x · W1ᵀ + b1) · W2ᵀ + b2)` and the control `x · Wcᵀ` clamped to `[-1, 1]`.  The kernel computes them over a
  grid of 128 tiles of 1024 rows, holding the weights whole at every tile and feeding its matrix products operands rounded
  to sixteen bits; the reference computes them on the whole arrays.  On the extended reals a change of float format is the
  identity and both programs evaluate the same finite sums in the same roles, so each result array of the kernel is, entry
  by entry, the reference's: entry `(r, 0)` is `lyapunov`, resp. `control`, of row `r` of `x` (Proof/Spec.lean).  No law that
  could fail at an infinity is used, so the inputs' finiteness is never opened.

  The kernel's side is Proof/Payload.lean (one tile's stored entries) and Proof/Blocks.lean (the tiles cover the arrays);
  the reference's side is Proof/Reference.lean.  The idealized kernel is the kernel's own text read on the extended reals
  (no rewrite was made), so nothing is owed for it beyond the frames.
-/
import proofs.«113191_j12034498363773_1_alg».proof.Defs
import proofs.«113191_j12034498363773_1_alg».proof.Proof.Gen.Kernel
import proofs.«113191_j12034498363773_1_alg».proof.Proof.Gen.Kernel.Frame
import proofs.«113191_j12034498363773_1_alg».proof.Proof.Gen.KernelIdeal
import proofs.«113191_j12034498363773_1_alg».proof.Proof.Gen.KernelIdeal.Frame
import proofs.«113191_j12034498363773_1_alg».proof.Proof.Gen.ReferenceIdeal
import proofs.«113191_j12034498363773_1_alg».proof.Proof.Gen.Pre_finite_inputs
import proofs.«113191_j12034498363773_1_alg».proof.Proof.Gen.KernelIdeal.Value
import proofs.«113191_j12034498363773_1_alg».proof.Proof.Gen.ReferenceIdeal.Run
import proofs.«113191_j12034498363773_1_alg».proof.Proof.Gen.ReferenceIdeal.Read
import proofs.«113191_j12034498363773_1_alg».proof.Proof.Blocks
import proofs.«113191_j12034498363773_1_alg».proof.Proof.Reference
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's program runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealized kernel is the kernel's own text: no operation was rewritten. -/
theorem preserves : Cert.preserves_Kernel_KernelIdeal := trivial

/-- From memories agreeing on the six arguments both programs end with, on every device, the Lyapunov candidates of the
    rows of `x` in the first result and the controls of the rows of `x` in the second. -/
theorem algebraic : Cert.algebraic_KernelIdeal_ReferenceIdeal := by
  intro m ρ m' ρ' _ hagree
  refine ⟨_, _, Cert.LyapunovNet.kernel_run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v11_eq, Cert.LyapunovNet.reference_lyapunov,
      (hagree c).1, (hagree c).2.1, (hagree c).2.2.1, (hagree c).2.2.2.1, (hagree c).2.2.2.2.1]
  · rw [Cert.ReferenceIdeal.Read.val_main_v14_eq, Cert.LyapunovNet.reference_control,
      (hagree c).1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
